-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x2048 : Shape := ⟨3, ![64, 256, 2048]⟩
abbrev S_ : Shape := ⟨0, ![]⟩

class Facts : Prop where
  bcast_S_S64x256x2048 : S_.BroadcastsInDim S64x256x2048 (![] : Fin 0 → Fin S64x256x2048.rank)
  reducesTo_S64x256x2048_S_d0_1_2 : S64x256x2048.ReducesTo [0, 1, 2] S_
  h_S_ : 0 < S_.numel

variable [Facts]

def fn {F : FTy → Type} [FloatOps F] (main_arg0 : FVec F S64x256x2048 .f32) : IVec S_ 1 :=
  let main_v0 : FVec F S64x256x2048 .f32 := Host.absf main_arg0
  let main_cst : FVec F S_ .f32 := constant S_ .f32 0x7F800000#32
  let main_v1 : FVec F S64x256x2048 .f32 := broadcastInDim S64x256x2048 ![] bcast_S_S64x256x2048 main_cst
  let main_v2 : IVec S64x256x2048 1 := cmpf .olt main_v0 main_v1
  let main_c : IVec S_ 1 := constantI S_ 1 1#1
  let main_v3 : IVec S_ 1 := (fun x v => Host.reduce IntOp.andi x v reducesTo_S64x256x2048_S_d0_1_2 h_S_) main_v2 main_c
  main_v3
-- ==== Kernel.lean ====
abbrev S64x256x2048 : Shape := ⟨3, ![64, 256, 2048]⟩
abbrev S64x256x256 : Shape := ⟨3, ![64, 256, 256]⟩
abbrev S2x256x2048 : Shape := ⟨3, ![2, 256, 2048]⟩
abbrev S2x256x256 : Shape := ⟨3, ![2, 256, 256]⟩
abbrev S2x256 : Shape := ⟨2, ![2, 256]⟩
abbrev S2x256x1 : Shape := ⟨3, ![2, 256, 1]⟩

abbrev nBuf : Space → Nat
  | .hbm => 2
  | .vmem => 4
  | .smem => 0
  | _ => 0

abbrev bufTy : (tb : Table) → Fin (tcTables nBuf tb) → BufTy
  | .hbm, ⟨0, _⟩ => ⟨S64x256x2048, .f32⟩
  | .hbm, ⟨1, _⟩ => ⟨S64x256x256, .f32⟩
  | .local _ .vmem, ⟨0, _⟩ => ⟨S2x256x2048, .f32⟩
  | .local _ .vmem, ⟨1, _⟩ => ⟨S2x256x2048, .f32⟩
  | .local _ .vmem, ⟨2, _⟩ => ⟨S2x256x256, .f32⟩
  | .local _ .vmem, ⟨3, _⟩ => ⟨S2x256x256, .f32⟩
  | _, _ => ⟨S64x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S2x256x2048_S2x256x2048_0_0_0 : ∀ a, (![0, 0, 0] : Fin 3 → Nat) a + S2x256x2048.size a ≤ S2x256x2048.size a
  h_S2x256x2048 : 0 < S2x256x2048.numel
  reduces_S2x256x2048_S2x256 : S2x256x2048.Reduces [2] S2x256
  shapeCasts_S2x256_S2x256x1 : S2x256.ShapeCasts S2x256x1
  broadcasts_S2x256x1_S2x256x2048 : S2x256x1.Broadcasts S2x256x2048
  bitsLt_bf16_f32 : FTy.bits .bf16 < FTy.bits .f32
  inb_S2x256x256_S2x256x256_0_0_0 : ∀ a, (![0, 0, 0] : Fin 3 → Nat) a + S2x256x256.size a ≤ S2x256x256.size a
  h_S2x256x256 : 0 < S2x256x256.numel
  dot_S2x256x2048_S2x256x2048_S2x256x256_2_2_1_1_0_0_wf : DotDims.WF S2x256x2048 S2x256x2048 S2x256x256 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x256x2048.size a ≤ S64x256x2048.size a
  hwx0_0 : ∀ i : grid0.Coords, EltTy.bits .f32 = 32 ∨ (Rect.block (s := S64x256x2048) S2x256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x256x256.size a ≤ S64x256x256.size a
  hwx0_1 : ∀ i : grid0.Coords, EltTy.bits .f32 = 32 ∨ (Rect.block (s := S64x256x256) S2x256x256.size (cc0_transform_1 i) (hinb0_1 i)).WholeWords (EltTy.packing .f32)

variable [Facts₀]

def dot_S2x256x2048_S2x256x2048_S2x256x256_2_2_1_1_0_0 : DotDims S2x256x2048 S2x256x2048 S2x256x256 where
  lhsContracting := [2]
  rhsContracting := [2]
  lhsNonContracting := [1]
  rhsNonContracting := [1]
  lhsBatch := [0]
  rhsBatch := [0]
  wf := dot_S2x256x2048_S2x256x2048_S2x256x256_2_2_1_1_0_0_wf

abbrev win0_0 : Pipeline.Window sig grid0 :=
  Pipeline.Window.ofSpec (Memref.whole main_arg0) S2x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2x256x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x256x2048 : Shape := ⟨3, ![64, 256, 2048]⟩
abbrev S_ : Shape := ⟨0, ![]⟩
abbrev S64x256 : Shape := ⟨2, ![64, 256]⟩
abbrev S64x256x1 : Shape := ⟨3, ![64, 256, 1]⟩
abbrev S64x256x256 : Shape := ⟨3, ![64, 256, 256]⟩

abbrev nBuf : Space → Nat
  | .hbm => 13
  | .vmem => 0
  | .smem => 0
  | _ => 0

abbrev bufTy : (tb : Table) → Fin (tcTables nBuf tb) → BufTy
  | .hbm, ⟨0, _⟩ => ⟨S64x256x2048, .f32⟩
  | .hbm, ⟨1, _⟩ => ⟨S_, .f32⟩
  | .hbm, ⟨2, _⟩ => ⟨S64x256, .f32⟩
  | .hbm, ⟨3, _⟩ => ⟨S64x256x1, .f32⟩
  | .hbm, ⟨4, _⟩ => ⟨S_, .f32⟩
  | .hbm, ⟨5, _⟩ => ⟨S64x256x1, .f32⟩
  | .hbm, ⟨6, _⟩ => ⟨S64x256x1, .f32⟩
  | .hbm, ⟨7, _⟩ => ⟨S64x256x2048, .f32⟩
  | .hbm, ⟨8, _⟩ => ⟨S64x256x2048, .f32⟩
  | .hbm, ⟨9, _⟩ => ⟨S64x256x256, .f32⟩
  | .hbm, ⟨10, _⟩ => ⟨S_, .f32⟩
  | .hbm, ⟨11, _⟩ => ⟨S64x256x256, .f32⟩
  | .hbm, ⟨12, _⟩ => ⟨S64x256x256, .f32⟩
  | _, _ => ⟨S64x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  reducesTo_S64x256x2048_S64x256_d2 : S64x256x2048.ReducesTo [2] S64x256
  h_S_ : 0 < S_.numel
  bcast_S64x256_S64x256x1_0_1 : S64x256.BroadcastsInDim S64x256x1 (![0, 1] : Fin 2 → Fin S64x256x1.rank)
  bcast_S_S64x256x1 : S_.BroadcastsInDim S64x256x1 (![] : Fin 0 → Fin S64x256x1.rank)
  bcast_S64x256x1_S64x256x2048_0_1_2 : S64x256x1.BroadcastsInDim S64x256x2048 (![0, 1, 2] : Fin 3 → Fin S64x256x2048.rank)
  bcast_S_S64x256x256 : S_.BroadcastsInDim S64x256x256 (![] : Fin 0 → Fin S64x256x256.rank)
  dot_S64x256x2048_S64x256x2048_S64x256x256_2_2_1_1_0_0_wf : DotDims.WF S64x256x2048 S64x256x2048 S64x256x256 [2] [2] [1] [1] [0] [0]

variable [Facts₀]

def dot_S64x256x2048_S64x256x2048_S64x256x256_2_2_1_1_0_0 : DotDims S64x256x2048 S64x256x2048 S64x256x256 where
  lhsContracting := [2]
  rhsContracting := [2]
  lhsNonContracting := [1]
  rhsNonContracting := [1]
  lhsBatch := [0]
  rhsBatch := [0]
  wf := dot_S64x256x2048_S64x256x2048_S64x256x256_2_2_1_1_0_0_wf

class Facts : Prop extends Facts₀ where

variable [Facts]
-- ==== Proof.Covariance.lean ====
/-
  The covariance of a stack of matrices, as one function on the extended reals.

  For a stack `X` of `B` matrices with 256 rows of 2048 observations each, the mean of row `c` of matrix `b`
  is the row's sum divided by the count 2048; a centred entry is the entry minus its row's mean; the Gram entry
  `(c, d)` of matrix `b` is the sum over the 2048 observations of the products of the centred rows `c` and
  `d`; the covariance is the Gram entry divided by the count. Everything depends on one matrix of the stack
  only, so two stacks that agree on a matrix have the same Gram entries there (`gram_congr`).

  The one algebraic law used: dividing an extended real by 2048 is multiplying it by 1/2048, at the infinities
  too, and the float words `0x45000000` and `0x3A000000` denote exactly 2048 and 1/2048 = 2⁻¹¹ (`div_count`).
-/
import Idealize.ShloMosaic.PureOps.Ideal
import Idealize.ShloMosaic.PureOps.Ideal.Laws
import Idealize.ShloMosaic.Lib.ValueIdx

noncomputable section

namespace Cert.Cov

open Idealize.ShloMosaic Idealize.ShloMosaic.ValueIdx

/-- The number of observations of a row, as the float word the programs spell: 2048.0. -/
abbrev count : EReal := Ideal.ofBits .f32 0x45000000#32

/-- Its reciprocal as the float word the kernel multiplies by: 2⁻¹¹. -/
abbrev recip : EReal := Ideal.ofBits .f32 0x3A000000#32

/-- The word `0x45000000` denotes the real 2048. -/
theorem count_eq : count = ((2048 : ℝ) : EReal) := by
  simp [count, Ideal.ofBits, Ideal.ieee, -EReal.coe_mul]; norm_num

/-- The word `0x3A000000` denotes the real 1/2048. -/
theorem recip_eq : recip = ((1 / 2048 : ℝ) : EReal) := by
  simp [recip, Ideal.ofBits, Ideal.ieee, -EReal.coe_mul]; norm_num

/-- Division by the count is the product with its reciprocal, on every extended real. -/
theorem div_count (x : EReal) : Ideal.div x count = x * recip := by
  rw [count_eq, recip_eq]
  exact Ideal.div_coe (by norm_num) x

variable {B : Nat}

/-- The mean of row `c` of matrix `b`: the row's sum divided by the count. -/
def rowMean (X : (⟨3, ![B, 256, 2048]⟩ : Shape).Idx → EReal) (b : Fin B) (c : Fin 256) : EReal :=
  Ideal.div (∑ t : Fin 2048, X (ix3 b c t)) count

/-- Entry `t` of row `c` of matrix `b`, minus the row's mean. -/
def centered (X : (⟨3, ![B, 256, 2048]⟩ : Shape).Idx → EReal) (b : Fin B) (c : Fin 256) (t : Fin 2048) : EReal :=
  X (ix3 b c t) - rowMean X b c

/-- The Gram entry `(c, d)` of the centred matrix `b`: the sum over the observations of the products. -/
def gram (X : (⟨3, ![B, 256, 2048]⟩ : Shape).Idx → EReal) (b : Fin B) (c d : Fin 256) : EReal :=
  ∑ t : Fin 2048, centered X b c t * centered X b d t

/-- The covariance of every matrix of a stack of 64: the Gram entries divided by the count. -/
def cov (X : (⟨3, ![64, 256, 2048]⟩ : Shape).Idx → EReal) : (⟨3, ![64, 256, 256]⟩ : Shape).Idx → EReal :=
  fun i => Ideal.div (gram X (i 0) (i 1) (i 2)) count

/-- The covariance at explicit coordinates. -/
theorem cov_ix3 (X : (⟨3, ![64, 256, 2048]⟩ : Shape).Idx → EReal) (b : Fin 64) (c d : Fin 256) :
    cov X (ix3 b c d) = Ideal.div (gram X b c d) count := rfl

variable {B' : Nat}

/-- A Gram entry reads one matrix of the stack only: stacks that agree on matrix `b` of the one and `b'` of the
    other have the same Gram entries there. -/
theorem gram_congr (Y : (⟨3, ![B, 256, 2048]⟩ : Shape).Idx → EReal) (X : (⟨3, ![B', 256, 2048]⟩ : Shape).Idx → EReal)
    (b : Fin B) (b' : Fin B') (h : ∀ (c : Fin 256) (t : Fin 2048), Y (ix3 b c t) = X (ix3 b' c t)) (c d : Fin 256) :
    gram Y b c d = gram X b' c d := by
  have hm : ∀ c, rowMean Y b c = rowMean X b' c := fun c => by
    unfold rowMean
    exact congrArg (Ideal.div · count) (Finset.sum_congr rfl fun t _ => h c t)
  unfold gram centered
  exact Finset.sum_congr rfl fun t _ => by rw [h c t, h d t, hm c, hm d]

end Cert.Cov

end
-- ==== Proof.ReferenceCov.lean ====
/-
  The reference computes the covariance.

  Its program sums each row (from the initial value zero), divides by the count, subtracts the broadcast mean,
  contracts the centred stack with itself over the observations, matrix by matrix, and divides by the count.
  Read at an index, stage by stage, that is `Cert.Cov.cov` of the argument: the centred stack at `(b, c, t)` is
  `Cov.centered` (`centered_stage`), the contraction at `(b, c, d)` is `Cov.gram`, and the last quotient is the
  definition of `Cov.cov` (`result_eq_cov`). The only arithmetic step is `0 + s = s` for the sum's initial value.
-/
import proofs.«116896_j80693845557391_2_alg».proof.Proof.Gen.ReferenceIdeal.Read
import proofs.«116896_j80693845557391_2_alg».proof.Proof.Covariance

noncomputable section

namespace Cert.ReferenceIdeal.CovValue

open Cert.ReferenceIdeal Cert.ReferenceIdeal.Gen Cert.ReferenceIdeal.Read Idealize.ShloMosaic Idealize.ShloMosaic.ValueIdx

/-- The index the row sum reads, below the two broadcasts of the mean, is `(b, c, k)`. -/
theorem mean_idx (b : Fin 64) (c : Fin 256) (t k : Fin 2048) :
    idx_main_v0 (idx_main_v1 (idx_main_v4 (ix3 b c t))) k = ix3 b c k :=
  funext fun a => Fin.ext (by match a with | ⟨0, _⟩ => rfl | ⟨1, _⟩ => rfl | ⟨2, _⟩ => rfl)

/-- The contraction's left factor at output `(b, c, d)` and observation `k` sits at `(b, c, k)`, -/
theorem left_idx (b : Fin 64) (c d : Fin 256) (k : Fin 2048) : lidx_main_v6 (ix3 b c d) k = ix3 b c k :=
  funext fun a => Fin.ext (by match a with | ⟨0, _⟩ => rfl | ⟨1, _⟩ => rfl | ⟨2, _⟩ => rfl)

/-- and its right factor at `(b, d, k)`. -/
theorem right_idx (b : Fin 64) (c d : Fin 256) (k : Fin 2048) : ridx_main_v6 (ix3 b c d) k = ix3 b d k :=
  funext fun a => Fin.ext (by match a with | ⟨0, _⟩ => rfl | ⟨1, _⟩ => rfl | ⟨2, _⟩ => rfl)

/-- The centred stack the reference builds is `Cov.centered`, entry by entry. -/
theorem centered_stage (X : (⟨S64x256x2048, .f32⟩ : BufTy).Contents (Elt Ideal)) (b : Fin 64) (c : Fin 256) (t : Fin 2048) :
    val_main_v5 (F := Ideal) X (ix3 b c t) = Cov.centered X b c t := by
  rw [val_main_v5_apply, val_main_v4_apply, val_main_v3_apply, val_main_v1_apply, val_main_v0_apply, val_main_v2_apply,
    val_main_cst_0_apply, val_main_cst_apply]
  simp only [mean_idx, Ideal.subf_def, Ideal.hostDivf_def, Ideal.ofBits_def, Ideal.ofBits_zero_f32, zero_add]
  rfl

/-- The reference's result is the covariance of its argument. -/
theorem result_eq_cov (X : (⟨S64x256x2048, .f32⟩ : BufTy).Contents (Elt Ideal)) :
    val_main_v8 (F := Ideal) X = Cov.cov X := by
  funext i
  obtain ⟨b, c, d, rfl⟩ : ∃ (b : Fin 64) (c d : Fin 256), i = ix3 b c d := ⟨i 0, i 1, i 2, eq_ix3 i⟩
  rw [val_main_v8_apply, val_main_v6_apply, val_main_v7_apply, val_main_cst_1_apply, Cov.cov_ix3]
  simp only [left_idx, right_idx, centered_stage, Ideal.hostDivf_def, Ideal.ofBits_def]
  rfl

end Cert.ReferenceIdeal.CovValue

end
-- ==== Proof.BlockCov.lean ====
/-
  What the kernel body computes from one block of two matrices.

  The body sums each row of its block over the 2048 observations, reshapes the sums to a column, divides by
  the count, broadcasts the mean along the row and subtracts it; the change of float format that follows is the
  identity on the extended reals. So the centred block at `(b, c, t)` is `Cov.centered` of the block
  (`centredBlock_apply`). The matrix product of the centred block with itself over the observation axis, matrix
  by matrix and into a zero accumulator, is the Gram entry `Cov.gram` (`selfProduct_apply`), and the body's
  stored value is that times the reciprocal of the count (`stored_apply`).
-/
import proofs.«116896_j80693845557391_2_alg».proof.Proof.Gen.KernelIdeal.Skeleton
import proofs.«116896_j80693845557391_2_alg».proof.Proof.Covariance
import Idealize.ShloMosaic.Lib.Pipeline.Value
import Idealize.ShloMosaic.Lib.ValueIdx
import Idealize.ShloMosaic.PureOps.Ideal.Laws

noncomputable section

namespace Cert.KernelIdeal.BlockCov

open Cert.KernelIdeal Cert.KernelIdeal.Gen Idealize.ShloMosaic Idealize.ShloMosaic.ValueIdx

/-- The sum of a block over its observation axis, at row `c` of matrix `b`. -/
theorem rowSum_apply (x : FVec Ideal S2x256x2048 .f32) (b : Fin 2) (c : Fin 256) :
    multiReduction .add [2] S2x256 x 0x00000000#32 reduces_S2x256x2048_S2x256 (.inl rfl) rfl (ix2 b c)
      = ∑ t : Fin 2048, x (ix3 b c t) := by
  refine (Ideal.multiReduction_add_single x 0x00000000#32 reduces_S2x256x2048_S2x256 (.inl rfl) rfl (ix2 b c)).trans ?_
  refine Finset.sum_congr rfl fun t _ => congrArg x ?_
  exact funext fun a => Fin.ext (by match a with | ⟨0, _⟩ => rfl | ⟨1, _⟩ => rfl | ⟨2, _⟩ => rfl)

/-- The block with each row's mean subtracted, in the matrix unit's input format. -/
def centredBlock (x : FVec Ideal S2x256x2048 .f32) : FVec Ideal S2x256x2048 .bf16 :=
  truncf .bf16 (subf x (broadcastTo S2x256x2048
    (divf (shapeCast S2x256x1 (multiReduction .add [2] S2x256 x 0x00000000#32 reduces_S2x256x2048_S2x256 (.inl rfl) rfl)
        shapeCasts_S2x256_S2x256x1)
      (broadcast S2x256x1 (Scalar.ofBits (F := Ideal) .f32 0x45000000#32)))
    broadcasts_S2x256x1_S2x256x2048)) bitsLt_bf16_f32

/-- Entry by entry the centred block is the entry minus its row's mean. -/
theorem centredBlock_apply (x : FVec Ideal S2x256x2048 .f32) (b : Fin 2) (c : Fin 256) (t : Fin 2048) :
    centredBlock x (ix3 b c t) = Cov.centered x b c t := by
  show x (ix3 b c t) - broadcastTo S2x256x2048 _ broadcasts_S2x256x1_S2x256x2048 (ix3 b c t) = x (ix3 b c t) - Cov.rowMean x b c
  refine congrArg (x (ix3 b c t) - ·) ?_
  refine (broadcastTo_apply _ broadcasts_S2x256x1_S2x256x2048 (ix3 b c t) (ix3 b c (0 : Fin 1)) (fun a => ?_)).trans ?_
  · match a with
    | ⟨0, _⟩ => show b.val = if (2 : Nat) = 1 then 0 else b.val; rw [if_neg (by decide)]
    | ⟨1, _⟩ => show c.val = if (256 : Nat) = 1 then 0 else c.val; rw [if_neg (by decide)]
    | ⟨2, _⟩ => show 0 = if (1 : Nat) = 1 then 0 else t.val; rw [if_pos rfl]
  show Ideal.div (shapeCast S2x256x1 _ shapeCasts_S2x256_S2x256x1 (ix3 b c (0 : Fin 1))) Cov.count = Ideal.div _ Cov.count
  refine congrArg (Ideal.div · Cov.count) ?_
  refine (shapeCast_apply _ shapeCasts_S2x256_S2x256x1 (ix3 b c (0 : Fin 1)) (ix2 b c) ?_).trans (rowSum_apply x b c)
  rw [Shape.rowMajor_val_two, Shape.rowMajor_val_three]
  show b.val * 256 + c.val = (b.val * 256 + c.val) * 1 + 0
  omega

/-- The coordinates of the two factors of the product of a block with itself: matrix `b` on both sides, row `c`
    on the left and row `d` on the right, the contracted observation last. -/
theorem lhs0 (i : S2x256x256.Idx) (q : dot_S2x256x2048_S2x256x2048_S2x256x256_2_2_1_1_0_0.contr.Idx) : (dot_S2x256x2048_S2x256x2048_S2x256x256_2_2_1_1_0_0.lhsIdx i q 0).val = (i 0).val := by
  unfold DotDims.lhsIdx
  rw [dif_pos (show (0 : Fin S2x256x2048.rank) ∈ dot_S2x256x2048_S2x256x2048_S2x256x256_2_2_1_1_0_0.lhsBatch by decide)]
  rfl
theorem lhs1 (i : S2x256x256.Idx) (q : dot_S2x256x2048_S2x256x2048_S2x256x256_2_2_1_1_0_0.contr.Idx) : (dot_S2x256x2048_S2x256x2048_S2x256x256_2_2_1_1_0_0.lhsIdx i q 1).val = (i 1).val := by
  unfold DotDims.lhsIdx
  rw [dif_neg (show ¬(1 : Fin S2x256x2048.rank) ∈ dot_S2x256x2048_S2x256x2048_S2x256x256_2_2_1_1_0_0.lhsBatch by decide), dif_pos (show (1 : Fin S2x256x2048.rank) ∈ dot_S2x256x2048_S2x256x2048_S2x256x256_2_2_1_1_0_0.lhsNonContracting by decide)]
  rfl
theorem lhs2 (i : S2x256x256.Idx) (q : dot_S2x256x2048_S2x256x2048_S2x256x256_2_2_1_1_0_0.contr.Idx) : (dot_S2x256x2048_S2x256x2048_S2x256x256_2_2_1_1_0_0.lhsIdx i q 2).val = (q ⟨0, by decide⟩).val :=
  dot_S2x256x2048_S2x256x2048_S2x256x256_2_2_1_1_0_0.lhsIdx_val_of_single rfl i q
theorem rhs0 (i : S2x256x256.Idx) (q : dot_S2x256x2048_S2x256x2048_S2x256x256_2_2_1_1_0_0.contr.Idx) : (dot_S2x256x2048_S2x256x2048_S2x256x256_2_2_1_1_0_0.rhsIdx i q 0).val = (i 0).val := by
  unfold DotDims.rhsIdx
  rw [dif_pos (show (0 : Fin S2x256x2048.rank) ∈ dot_S2x256x2048_S2x256x2048_S2x256x256_2_2_1_1_0_0.rhsBatch by decide)]
  rfl
theorem rhs1 (i : S2x256x256.Idx) (q : dot_S2x256x2048_S2x256x2048_S2x256x256_2_2_1_1_0_0.contr.Idx) : (dot_S2x256x2048_S2x256x2048_S2x256x256_2_2_1_1_0_0.rhsIdx i q 1).val = (i 2).val := by
  unfold DotDims.rhsIdx
  rw [dif_neg (show ¬(1 : Fin S2x256x2048.rank) ∈ dot_S2x256x2048_S2x256x2048_S2x256x256_2_2_1_1_0_0.rhsBatch by decide), dif_pos (show (1 : Fin S2x256x2048.rank) ∈ dot_S2x256x2048_S2x256x2048_S2x256x256_2_2_1_1_0_0.rhsNonContracting by decide)]
  rfl
theorem rhs2 (i : S2x256x256.Idx) (q : dot_S2x256x2048_S2x256x2048_S2x256x256_2_2_1_1_0_0.contr.Idx) : (dot_S2x256x2048_S2x256x2048_S2x256x256_2_2_1_1_0_0.rhsIdx i q 2).val = (q ⟨0, by decide⟩).val :=
  dot_S2x256x2048_S2x256x2048_S2x256x256_2_2_1_1_0_0.rhsIdx_val_of_single rfl i q

/-- The product of a block with itself over the observation axis, into a zero accumulator, at `(b, c, d)`: the sum
    over the observations of row `c` times row `d` of matrix `b`. -/
theorem selfProduct_apply (y : FVec Ideal S2x256x2048 .bf16) (b : Fin 2) (c d : Fin 256) :
    matmul dot_S2x256x2048_S2x256x2048_S2x256x256_2_2_1_1_0_0 none y y (constant (F := Ideal) S2x256x256 .f32 0x00000000#32) (ix3 b c d)
      = ∑ t : Fin 2048, y (ix3 b c t) * y (ix3 b d t) := by
  simp only [matmul]
  rw [Ideal.matmul_constant_zero_apply, ← Equiv.sum_comp (ValueIdx.contrEquiv1 dot_S2x256x2048_S2x256x2048_S2x256x256_2_2_1_1_0_0 2048 rfl rfl).symm]
  refine Finset.sum_congr rfl fun k _ => ?_
  have hk := ValueIdx.contrEquiv1_symm_val dot_S2x256x2048_S2x256x2048_S2x256x256_2_2_1_1_0_0 2048 rfl rfl k
  have el : dot_S2x256x2048_S2x256x2048_S2x256x256_2_2_1_1_0_0.lhsIdx (ix3 b c d) ((ValueIdx.contrEquiv1 dot_S2x256x2048_S2x256x2048_S2x256x256_2_2_1_1_0_0 2048 rfl rfl).symm k) = ix3 b c k := funext fun a => Fin.ext (by
    match a with
    | ⟨0, _⟩ => exact lhs0 _ _
    | ⟨1, _⟩ => exact lhs1 _ _
    | ⟨2, _⟩ => exact (lhs2 _ _).trans hk)
  have er : dot_S2x256x2048_S2x256x2048_S2x256x256_2_2_1_1_0_0.rhsIdx (ix3 b c d) ((ValueIdx.contrEquiv1 dot_S2x256x2048_S2x256x2048_S2x256x256_2_2_1_1_0_0 2048 rfl rfl).symm k) = ix3 b d k := funext fun a => Fin.ext (by
    match a with
    | ⟨0, _⟩ => exact rhs0 _ _
    | ⟨1, _⟩ => exact rhs1 _ _
    | ⟨2, _⟩ => exact (rhs2 _ _).trans hk)
  rw [el, er]

/-- The body's stored value is the product of the centred block with itself, scaled by the reciprocal of the count. -/
theorem stored_eq (x : FVec Ideal S2x256x2048 .f32) :
    k0_pay1 (F := Ideal) x
      = mulf (matmul dot_S2x256x2048_S2x256x2048_S2x256x256_2_2_1_1_0_0 none (centredBlock x) (centredBlock x) (constant (F := Ideal) S2x256x256 .f32 0x00000000#32))
          (broadcast S2x256x256 (Scalar.ofBits (F := Ideal) .f32 0x3A000000#32)) := rfl

/-- At `(b, c, d)` the stored value is the Gram entry of the block times the reciprocal of the count. -/
theorem stored_apply (x : FVec Ideal S2x256x2048 .f32) (b : Fin 2) (c d : Fin 256) :
    k0_pay1 (F := Ideal) x (ix3 b c d) = Cov.gram x b c d * Cov.recip := by
  rw [stored_eq]
  show matmul dot_S2x256x2048_S2x256x2048_S2x256x256_2_2_1_1_0_0 none (centredBlock x) (centredBlock x) (constant (F := Ideal) S2x256x256 .f32 0x00000000#32) (ix3 b c d) * Cov.recip = _
  rw [selfProduct_apply]
  unfold Cov.gram
  refine congrArg (· * Cov.recip) (Finset.sum_congr rfl fun t _ => ?_)
  rw [centredBlock_apply, centredBlock_apply]

end Cert.KernelIdeal.BlockCov

end
-- ==== Proof.ArrayCov.lean ====
/-
  From the blocks to the whole array: the kernel's result array is the covariance of its argument.

  The grid has 32 points; at point `t` the input window holds matrices `2t` and `2t + 1` of the argument (block
  index `(t, 0, 0)` of blocks of two whole matrices), and the output window writes back to the same two matrices
  of the result (`idx_facts`). A Gram entry reads one matrix only, so the Gram entry of the block at matrix `b` is
  the Gram entry of the argument at matrix `2t + b` (`block_entry`, `Cov.gram_congr`), and multiplying it by the
  reciprocal of the count is dividing it by the count (`Cov.div_count`): what point `t` writes back is block `t` of
  `Cov.cov` of the argument (`flushed_eq`). Matrix `n` of the result lies in the block of point `n / 2`, so the
  blocks cover the array (`cover`), and the array ends holding `Cov.cov` of the argument (`final`, `run`).
-/
import proofs.«116896_j80693845557391_2_alg».proof.Proof.Gen.KernelIdeal.Value
import proofs.«116896_j80693845557391_2_alg».proof.Proof.BlockCov
import proofs.«116896_j80693845557391_2_alg».proof.Proof.Covariance

noncomputable section

namespace Cert.KernelIdeal.ArrayCov

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-- Both windows sit at block index `(t, 0, 0)` at point `t`. -/
theorem idx_facts : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

/-- Entry `(b, r, k)` of the input block at point `t` is entry `(2t + b, r, k)` of the argument. -/
theorem block_entry (c : Dev nD) (t : Fin cfg0.N) (b : Fin 2) (r : Fin 256) (k : Fin 2048) (b' : Fin 64)
    (hb : b'.val = 2 * t.val + b.val) :
    (iblk m c 0 t : FVec Ideal S2x256x2048 .f32) (ix3 b r k)
      = (V m c main_arg0 : S64x256x2048.Idx → EReal) (ix3 b' r k) := by
  obtain ⟨e0, e1, e2, -⟩ := idx_facts t
  unfold iblk
  rw [View.read_apply]
  show V m c main_arg0 (((cfg0.win 0).blk t).view.emb (ix3 b r k)) = V m c main_arg0 (ix3 b' r k)
  refine congrArg (V m c main_arg0) ?_
  funext a
  apply Fin.ext
  match a with
  | ⟨0, _⟩ => show win0_0.index t (0 : Fin 3) * 2 + 1 * b.val = b'.val; omega
  | ⟨1, _⟩ => show win0_0.index t (1 : Fin 3) * 256 + 1 * r.val = r.val; omega
  | ⟨2, _⟩ => show win0_0.index t (2 : Fin 3) * 2048 + 1 * k.val = k.val; omega

/-- The body's stored value at point `t`, at an index `j` of the block, is the covariance of the argument at the
    index `i` of the array that sits two matrices per point further on. -/
theorem block_value (c : Dev nD) (t : Fin cfg0.N) (j : S2x256x256.Idx) (i : S64x256x256.Idx)
    (h0 : (i 0).val = 2 * t.val + (j 0).val) (h1 : (i 1).val = (j 1).val) (h2 : (i 2).val = (j 2).val) :
    k0_pay1 (F := Ideal) (iblk m c 0 t) j = Cov.cov (V m c main_arg0) i := by
  obtain ⟨b, r, d, rfl⟩ : ∃ (b : Fin 2) (r d : Fin 256), j = ix3 b r d := ⟨j 0, j 1, j 2, eq_ix3 j⟩
  obtain ⟨b', r', d', rfl⟩ : ∃ (b' : Fin 64) (r' d' : Fin 256), i = ix3 b' r' d' := ⟨i 0, i 1, i 2, eq_ix3 i⟩
  obtain rfl : r' = r := Fin.ext h1
  obtain rfl : d' = d := Fin.ext h2
  refine (BlockCov.stored_apply (iblk m c 0 t) b r' d').trans ?_
  rw [Cov.cov_ix3, Cov.div_count]
  exact congrArg (· * Cov.recip) (Cov.gram_congr _ _ b b' (fun r k => block_entry m c t b r k b' h0) r' d')

/-- What point `t` writes back is block `t` of the covariance of the argument. -/
theorem flushed_eq (c : Dev nD) (t : Fin cfg0.N) :
    (dats m 0 c).flushed 1 t = ((cfg0.win 1).blk t).view.read (Elt Ideal) (Cov.cov (V m c main_arg0)) := by
  rw [Value.flushed1]
  unfold out0_1
  rw [View.canon_unit_zero hz]
  simp only [View.ld_unit_zero (S := S2x256x2048) hz]
  obtain ⟨-, -, -, e3, e4, e5⟩ := idx_facts t
  funext j
  show k0_pay1 (F := Ideal) (iblk m c 0 t) j = Cov.cov (V m c main_arg0) (((cfg0.win 1).blk t).view.emb j)
  refine block_value m c t j _ ?_ ?_ ?_
  · show win0_1.index t (0 : Fin 3) * 2 + 1 * (j 0).val = 2 * t.val + (j 0).val; omega
  · show win0_1.index t (1 : Fin 3) * 256 + 1 * (j 1).val = (j 1).val; omega
  · show win0_1.index t (2 : Fin 3) * 256 + 1 * (j 2).val = (j 2).val; omega

/-- An index of the result is in point `t`'s block iff each coordinate is in the block's range on its axis. -/
theorem mem_blk (t : Fin cfg0.N) (i : S64x256x256.Idx) :
    i ∈ ((cfg0.win 1).blk t).view.set ↔ ∀ a : Fin 3, win0_1.index t a * S2x256x256.size a ≤ (i a).val ∧ (i a).val < win0_1.index t a * S2x256x256.size a + S2x256x256.size a := by
  show i ∈ ((View.whole main_v0).slice (win0_1.rect t)).set ↔ _
  rw [View.set_slice_whole, Rect.mem_set_unit]
  exact Iff.rfl

/-- Matrix `n` of the result lies in the block of point `n / 2`: the blocks cover the array. -/
theorem cover (i : S64x256x256.Idx) :
    ∃ t : Fin cfg0.N, (cfg0.win 1).flush t = true ∧ i ∈ ((cfg0.win 1).blk t).view.set := by
  have hi0 : (i 0).val < 64 := (i 0).isLt
  have hi1 : (i 1).val < 256 := (i 1).isLt
  have hi2 : (i 2).val < 256 := (i 2).isLt
  have hN : cfg0.N = 32 := N_0
  have ht : (i 0).val / 2 < cfg0.N := by rw [hN]; omega
  obtain ⟨-, -, -, e3, e4, e5⟩ := idx_facts ⟨(i 0).val / 2, ht⟩
  refine ⟨⟨(i 0).val / 2, ht⟩, flush0_1 _, ?_⟩
  rw [mem_blk]
  intro a
  match a with
  | ⟨0, _⟩ =>
    show win0_1.index ⟨(i 0).val / 2, ht⟩ (0 : Fin 3) * 2 ≤ (i 0).val ∧ (i 0).val < win0_1.index ⟨(i 0).val / 2, ht⟩ (0 : Fin 3) * 2 + 2
    rw [e3]; show (i 0).val / 2 * 2 ≤ (i 0).val ∧ (i 0).val < (i 0).val / 2 * 2 + 2; omega
  | ⟨1, _⟩ =>
    show win0_1.index ⟨(i 0).val / 2, ht⟩ (1 : Fin 3) * 256 ≤ (i 1).val ∧ (i 1).val < win0_1.index ⟨(i 0).val / 2, ht⟩ (1 : Fin 3) * 256 + 256
    rw [e4]; omega
  | ⟨2, _⟩ =>
    show win0_1.index ⟨(i 0).val / 2, ht⟩ (2 : Fin 3) * 256 ≤ (i 2).val ∧ (i 2).val < win0_1.index ⟨(i 0).val / 2, ht⟩ (2 : Fin 3) * 256 + 256
    rw [e5]; omega

/-- The result array after the run is the covariance of the argument as the region finds it. -/
theorem final (c : Dev nD) : (dats m 0 c).arrAt 1 cfg0.N = Cov.cov (V m c main_arg0) :=
  (dats m 0 c).arrAt_eq_of_cover 1 (Cov.cov (V m c main_arg0)) (fun t _ => flushed_eq m c t) cover

/-- Every weakly fair execution of the kernel's program ends with the result array at the covariance of the
    argument and the argument unchanged. -/
theorem run : θ_run defs (onTc (τ := τ) (main (F := Ideal))) ⟨m, fun _ => 0, ρ⟩ fun r => ∀ c : Dev nD,
      r.2.mem ((c : Thread nD τ).loc main_v0) = Cov.cov (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.ArrayCov

end
-- ==== Proof.lean ====
/-
  The kernel computes, for each of 64 matrices of 256 rows and 2048 observations, the covariance of the rows:
  each row minus its mean, the products of the centred rows summed over the observations, the sums scaled by
  the reciprocal of 2048. It does so two matrices per grid point. The reference does the same on the whole
  stack at once and divides by 2048 at the end. On the extended reals both are one function of the argument,
  `Cert.Cov.cov` (Proof/Covariance.lean): a change of float format is the identity, a matrix product into a zero
  accumulator is the plain sum of products, and dividing by 2048 is multiplying by the exactly representable
  2⁻¹¹, at the infinities too — so no finiteness of the input is used.

  Proof/ReferenceCov.lean reads the reference's stages at an index and finds `Cov.cov`; Proof/BlockCov.lean reads
  the kernel body's stored value at an index of a block; Proof/ArrayCov.lean carries the blocks to the array.
  Here the five claims are assembled: the three frames, the (empty) idealization ledger, and the equality of the
  two results.
-/
import proofs.«116896_j80693845557391_2_alg».proof.Defs
import proofs.«116896_j80693845557391_2_alg».proof.Proof.Gen.Kernel
import proofs.«116896_j80693845557391_2_alg».proof.Proof.Gen.Kernel.Frame
import proofs.«116896_j80693845557391_2_alg».proof.Proof.Gen.KernelIdeal
import proofs.«116896_j80693845557391_2_alg».proof.Proof.Gen.KernelIdeal.Frame
import proofs.«116896_j80693845557391_2_alg».proof.Proof.Gen.KernelIdeal.Value
import proofs.«116896_j80693845557391_2_alg».proof.Proof.Gen.ReferenceIdeal
import proofs.«116896_j80693845557391_2_alg».proof.Proof.Gen.ReferenceIdeal.Run
import proofs.«116896_j80693845557391_2_alg».proof.Proof.Gen.ReferenceIdeal.Read
import proofs.«116896_j80693845557391_2_alg».proof.Proof.Gen.Pre_finite_inputs
import proofs.«116896_j80693845557391_2_alg».proof.Proof.ReferenceCov
import proofs.«116896_j80693845557391_2_alg».proof.Proof.ArrayCov

noncomputable section

namespace Cert.Proof

open Idealize.ShloMosaic Idealize.ShloMosaic.TcCoe Idealize.SL.Sem

/-- The kernel's program as printed terminates without a fault and leaves its argument unchanged. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference's run, with its result forgotten, is its frame. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the reading on the extended reals: nothing to preserve. -/
theorem preserves : Cert.preserves_Kernel_KernelIdeal := trivial

/-- From memories that agree on the argument, the kernel's result array and the reference's both end at the
    covariance of the argument. -/
theorem algebraic : Cert.algebraic_KernelIdeal_ReferenceIdeal := by
  intro m ρ m' ρ' _ hagree
  refine ⟨_, Cert.KernelIdeal.ArrayCov.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.CovValue.result_eq_cov, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
